-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2x64x512 : Shape := ⟨3, ![2, 64, 512]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2x64x512 : S_.BroadcastsInDim S2x64x512 (![] : Fin 0 → Fin S2x64x512.rank)
  reducesTo_S2x64x512_S_d0_1_2 : S2x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16384x512 .f32) (main_arg1 : FVec F S2x64x512 .f32) (main_arg2 : FVec F S512x1024 .f32) (main_arg3 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2x64x512 .f32 := Host.absf main_arg1
  let main_cst_0 : FVec F S_ .f32 := constant S_ .f32 0x7F800000#32
  let main_v5 : FVec F S2x64x512 .f32 := broadcastInDim S2x64x512 ![] bcast_S_S2x64x512 main_cst_0
  let main_v6 : IVec S2x64x512 1 := cmpf .olt main_v4 main_v5
  let main_c_1 : IVec S_ 1 := constantI S_ 1 1#1
  let main_v7 : IVec S_ 1 := (fun x v => Host.reduce IntOp.andi x v reducesTo_S2x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16384x512 : Shape := ⟨2, ![16384, 512]⟩
abbrev S2x64x512 : Shape := ⟨3, ![2, 64, 512]⟩
abbrev S512x1024 : Shape := ⟨2, ![512, 1024]⟩
abbrev S512 : Shape := ⟨1, ![512]⟩
abbrev S1x64x512 : Shape := ⟨3, ![1, 64, 512]⟩
abbrev S64x512 : Shape := ⟨2, ![64, 512]⟩
abbrev S512x512 : Shape := ⟨2, ![512, 512]⟩
abbrev S512x64 : Shape := ⟨2, ![512, 64]⟩
abbrev S512x1 : Shape := ⟨2, ![512, 1]⟩
abbrev S512x4096 : Shape := ⟨2, ![512, 4096]⟩
abbrev S1x4096 : Shape := ⟨2, ![1, 4096]⟩
abbrev S512x64x1 : Shape := ⟨3, ![512, 64, 1]⟩
abbrev S512x1x64 : Shape := ⟨3, ![512, 1, 64]⟩
abbrev S512x64x64 : Shape := ⟨3, ![512, 64, 64]⟩
abbrev S512x1x1 : Shape := ⟨3, ![512, 1, 1]⟩
abbrev S4096 : Shape := ⟨1, ![4096]⟩
abbrev S16384x4096 : Shape := ⟨2, ![16384, 4096]⟩
abbrev S1024x512 : Shape := ⟨2, ![1024, 512]⟩
abbrev S1024x4096 : Shape := ⟨2, ![1024, 4096]⟩
abbrev S1024 : Shape := ⟨1, ![1024]⟩
abbrev S1024x1 : Shape := ⟨2, ![1024, 1]⟩

abbrev nBuf : Space → Nat
  | .hbm => 18
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S2x64x512, .f32⟩
  | .hbm, ⟨2, _⟩ => ⟨S512x1024, .f32⟩
  | .hbm, ⟨3, _⟩ => ⟨S512, .f32⟩
  | .hbm, ⟨4, _⟩ => ⟨S1x64x512, .f32⟩
  | .hbm, ⟨5, _⟩ => ⟨S64x512, .f32⟩
  | .hbm, ⟨6, _⟩ => ⟨S1x64x512, .f32⟩
  | .hbm, ⟨7, _⟩ => ⟨S64x512, .f32⟩
  | .hbm, ⟨8, _⟩ => ⟨S512x512, .f32⟩
  | .hbm, ⟨9, _⟩ => ⟨S512x512, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S512x1, .f32⟩
  | .hbm, ⟨15, _⟩ => ⟨S512x4096, .bf16⟩
  | .hbm, ⟨16, _⟩ => ⟨S1x4096, .f32⟩
  | .hbm, ⟨17, _⟩ => ⟨S16384x4096, .f32⟩
  | .local _ .vmem, ⟨0, _⟩ => ⟨S512x64, .f32⟩
  | .local _ .vmem, ⟨1, _⟩ => ⟨S512x64, .f32⟩
  | .local _ .vmem, ⟨2, _⟩ => ⟨S512x1, .f32⟩
  | .local _ .vmem, ⟨3, _⟩ => ⟨S512x4096, .bf16⟩
  | .local _ .vmem, ⟨4, _⟩ => ⟨S1x4096, .f32⟩
  | .local _ .vmem, ⟨5, _⟩ => ⟨S1024x512, .f32⟩
  | .local _ .vmem, ⟨6, _⟩ => ⟨S1024x512, .f32⟩
  | .local _ .vmem, ⟨7, _⟩ => ⟨S512x4096, .bf16⟩
  | .local _ .vmem, ⟨8, _⟩ => ⟨S1x4096, .f32⟩
  | .local _ .vmem, ⟨9, _⟩ => ⟨S1024x4096, .f32⟩
  | .local _ .vmem, ⟨10, _⟩ => ⟨S1024x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x64x512_S1x64x512_0_0_0 : S2x64x512.Slices ![0, 0, 0] S1x64x512
  shapeCasts_S1x64x512_S64x512 : S1x64x512.ShapeCasts S64x512
  slices_S2x64x512_S1x64x512_1_0_0 : S2x64x512.Slices ![1, 0, 0] S1x64x512
  slices_S512x1024_S512x512_0_0 : S512x1024.Slices ![0, 0] S512x512
  slices_S512x1024_S512x512_0_512 : S512x1024.Slices ![0, 512] S512x512
  transposes_S64x512_S512x64_1_0 : S64x512.Transposes [1, 0] S512x64
  shapeCasts_S512_S512x1 : S512.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x64_S512x64x1 : S512x64.ShapeCasts S512x64x1
  shapeCasts_S512x64_S512x1x64 : S512x64.ShapeCasts S512x1x64
  broadcasts_S512x64x1_S512x64x64 : S512x64x1.Broadcasts S512x64x64
  broadcasts_S512x1x64_S512x64x64 : S512x1x64.Broadcasts S512x64x64
  shapeCasts_S512x1_S512x1x1 : S512x1.ShapeCasts S512x1x1
  broadcasts_S512x1x1_S512x64x64 : S512x1x1.Broadcasts S512x64x64
  shapeCasts_S512x64x64_S512x4096 : S512x64x64.ShapeCasts S512x4096
  reduces_S512x4096_S4096 : S512x4096.Reduces [0] S4096
  shapeCasts_S4096_S1x4096 : S4096.ShapeCasts S1x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S1x4096_S1x4096_0_0 : ∀ a, (![0, 0] : Fin 2 → Nat) a + S1x4096.size a ≤ S1x4096.size a
  h_S1x4096 : 0 < S1x4096.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  shapeCasts_S512x4096_S512x4096 : S512x4096.ShapeCasts S512x4096
  broadcasts_S1024x1_S1024x4096 : S1024x1.Broadcasts S1024x4096
  shapeCasts_S1x4096_S1x4096 : S1x4096.ShapeCasts S1x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  dot_S512x512_S512x64_S512x64_1_0_0_1_n_n_wf : DotDims.WF S512x512 S512x64 S512x64 [1] [0] [0] [1] [] []
  dot_S1024x512_S512x4096_S1024x4096_1_0_0_1_n_n_wf : DotDims.WF S1024x512 S512x4096 S1024x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S512x64.size a
  hwx0_0 : ∀ i : grid0.Coords, EltTy.bits .f32 = 32 ∨ (Rect.block (s := S512x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .f32 = 32 ∨ (Rect.block (s := S16384x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x4096.size a
  hwx1_1 : ∀ i : grid1.Coords, EltTy.bits .bf16 = 32 ∨ (Rect.block (s := S512x4096) S512x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S16384x4096.size a
  hwx1_3 : ∀ i : grid1.Coords, EltTy.bits .f32 = 32 ∨ (Rect.block (s := S16384x4096) S1024x4096.size (cc1_transform_3 i) (hinb1_3 i)).WholeWords (EltTy.packing .f32)

variable [Facts₀]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S1024x512_S512x4096_S1024x4096_1_0_0_1_n_n : DotDims S1024x512 S512x4096 S1024x4096 where
  lhsContracting := [1]
  rhsContracting := [0]
  lhsNonContracting := [0]
  rhsNonContracting := [1]
  lhsBatch := []
  rhsBatch := []
  wf := dot_S1024x512_S512x4096_S1024x4096_1_0_0_1_n_n_wf

abbrev win0_0 : Pipeline.Window sig grid0 :=
  Pipeline.Window.ofSpec (Memref.whole main_v7) S512x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S512x4096.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_0) S512x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11_1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x512 : Shape := ⟨2, ![16384, 512]⟩
abbrev S2x64x512 : Shape := ⟨3, ![2, 64, 512]⟩
abbrev S512x1024 : Shape := ⟨2, ![512, 1024]⟩
abbrev S512 : Shape := ⟨1, ![512]⟩
abbrev S1x64x512 : Shape := ⟨3, ![1, 64, 512]⟩
abbrev S64x512 : Shape := ⟨2, ![64, 512]⟩
abbrev S64x1x512 : Shape := ⟨3, ![64, 1, 512]⟩
abbrev S64x64x512 : Shape := ⟨3, ![64, 64, 512]⟩
abbrev S64x64x1024 : Shape := ⟨3, ![64, 64, 1024]⟩
abbrev S4096x1024 : Shape := ⟨2, ![4096, 1024]⟩
abbrev S1024x512 : Shape := ⟨2, ![1024, 512]⟩
abbrev S4096x512 : Shape := ⟨2, ![4096, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S512x4096 : Shape := ⟨2, ![512, 4096]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x64x512, .f32⟩
  | .hbm, ⟨2, _⟩ => ⟨S512x1024, .f32⟩
  | .hbm, ⟨3, _⟩ => ⟨S512, .f32⟩
  | .hbm, ⟨4, _⟩ => ⟨S1x64x512, .f32⟩
  | .hbm, ⟨5, _⟩ => ⟨S64x512, .f32⟩
  | .hbm, ⟨6, _⟩ => ⟨S64x1x512, .f32⟩
  | .hbm, ⟨7, _⟩ => ⟨S64x64x512, .f32⟩
  | .hbm, ⟨8, _⟩ => ⟨S1x64x512, .f32⟩
  | .hbm, ⟨9, _⟩ => ⟨S64x512, .f32⟩
  | .hbm, ⟨10, _⟩ => ⟨S1x64x512, .f32⟩
  | .hbm, ⟨11, _⟩ => ⟨S64x64x512, .f32⟩
  | .hbm, ⟨12, _⟩ => ⟨S64x64x1024, .f32⟩
  | .hbm, ⟨13, _⟩ => ⟨S4096x1024, .f32⟩
  | .hbm, ⟨14, _⟩ => ⟨S1024x512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S16384x512, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S512x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  slices_S2x64x512_S1x64x512_0_0_0 : S2x64x512.Slices ![0, 0, 0] S1x64x512
  shapeCasts_S1x64x512_S64x512 : S1x64x512.ShapeCasts S64x512
  bcast_S64x512_S64x1x512_0_2 : S64x512.BroadcastsInDim S64x1x512 (![0, 2] : Fin 2 → Fin S64x1x512.rank)
  bcast_S64x1x512_S64x64x512_0_1_2 : S64x1x512.BroadcastsInDim S64x64x512 (![0, 1, 2] : Fin 3 → Fin S64x64x512.rank)
  slices_S2x64x512_S1x64x512_1_0_0 : S2x64x512.Slices ![1, 0, 0] S1x64x512
  bcast_S64x512_S1x64x512_1_2 : S64x512.BroadcastsInDim S1x64x512 (![1, 2] : Fin 2 → Fin S1x64x512.rank)
  bcast_S1x64x512_S64x64x512_0_1_2 : S1x64x512.BroadcastsInDim S64x64x512 (![0, 1, 2] : Fin 3 → Fin S64x64x512.rank)
  concatenates_S64x64x512_S64x64x512_S64x64x1024_d2 : Shape.Concatenates [S64x64x512, S64x64x512] S64x64x1024 2
  shapeCasts_S64x64x1024_S4096x1024 : S64x64x1024.ShapeCasts S4096x1024
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  transposes_S4096x512_S512x4096_1_0 : S4096x512.Transposes [1, 0] S512x4096
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  dot_S4096x1024_S1024x512_S4096x512_1_0_0_1_n_n_wf : DotDims.WF S4096x1024 S1024x512 S4096x512 [1] [0] [0] [1] [] []
  dot_S16384x512_S512x4096_S16384x4096_1_0_0_1_n_n_wf : DotDims.WF S16384x512 S512x4096 S16384x4096 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf

class Facts : Prop extends Facts₀ where

variable [Facts]
-- ==== Proof.KernelRun.lean ====
/-
  The idealized kernel's run with its result array named.

  The program is host operations, then two kernel regions. Along the run the device's buffers pass through four
  boundary states: the launch memory, the memory after the host operations (where the first region — the mixing of
  the prototype pairs — is entered), the memory at that region's exit (where the second region — the pairwise
  squared distances — is entered), and the memory at the second region's exit. Every weakly fair execution ends with
  every unscoped buffer at the last boundary state; the generated frame reads only the four argument arrays off it.
  Here the result array is read off it as well: it ends at what the second region's write-backs leave in it.
-/
import proofs.«166820_j80049600463053_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last boundary
    state's contents of its buffer, and the four argument arrays end as launched. -/
theorem run_boundary : θ_run defs (onTc (τ := τ) (main (F := F))) ⟨m, fun _ => 0, ρ⟩ (fun r => ∀ c : Dev nD,
      r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v12 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The last boundary state holds, in the result array's buffer, what the second region's write-backs leave there. -/
theorem boundary_result (c : Dev nD) :
    W3 m ρ c (Proc.devRef .tc main_v12) = (dat1 (V2 m ρ) c).arrAt 3 cfg1.N := W3_arr m ρ c 3

/-- The second region is entered with the mixed prototypes' buffer at what the first region's write-backs leave there, -/
theorem entry_mixed (c : Dev nD) :
    V2 m ρ c main_v11_0 = (dat0 (V1 m ρ) c).arrAt 3 cfg0.N := W2_arr m ρ c 3

/-- with the squared norms' buffer likewise, -/
theorem entry_norms (c : Dev nD) :
    V2 m ρ c main_v11_1 = (dat0 (V1 m ρ) c).arrAt 4 cfg0.N := W2_arr m ρ c 4

/-- and with the batch as launched: neither the host operations nor the first region write it. -/
theorem entry_batch (c : Dev nD) : V2 m ρ c main_arg0 = m ((c : Thread nD τ).loc main_arg0) :=
  (((W3_arr m ρ c 0).trans (((dat1 (V2 m ρ) c).arrAt_in 0 rfl _).trans (A_eq1 (V2 m ρ) c 0))).symm).trans (W3_main_arg0 m ρ c)

end Cert.KernelIdeal.RunValue

end
-- ==== Proof.Spec.lean ====
/-
  The mathematics of the pairwise squared distance to mixed prototypes, over the extended reals.

  Data: a batch x[i, k] (16384 rows of 512), two groups of 64 prototypes pv[g, j, k] (vectors of 512), mixing weights
  W[d, c] (512 rows of 1024 columns) and a bias b[d]. The mixed prototype of the pair (j, l) is the affine image of the
  concatenation (pv[0, j, ·], pv[1, l, ·]) under (W, b); pairs are numbered q = 64 j + l. Its d-th entry is

      mixed d q = (∑ k, W[d, k] · pv[0, q / 64, k]  +  ∑ k, W[d, 512 + k] · pv[1, q % 64, k]) + b[d],

  and the result is, for each batch row i and each pair q,

      (∑ k, x[i, k]²  −  2 · ∑ d, x[i, d] · mixed d q)  +  ∑ d, (mixed d q)².

  The one law used between two arrangements of this value: a contraction over the 1024 columns of a weight row
  against the concatenated pair is the sum of the contractions over the two halves (a finite sum over 1024 indices
  split at 512), each product commuted. Addition and multiplication of extended reals are commutative and
  associative, so no finiteness is needed.
-/
import Idealize.ShloMosaic.Lib.ValueIdx
import Idealize.ShloMosaic.PureOps.Ideal.Laws

noncomputable section

namespace Cert.Spec

open Idealize.ShloMosaic Idealize.ShloMosaic.ValueIdx

/-- The batch, the prototypes, the mixing weights and the bias, as arrays of extended reals. -/
abbrev Batch : Type := (⟨2, ![16384, 512]⟩ : Shape).Idx → EReal
abbrev Protos : Type := (⟨3, ![2, 64, 512]⟩ : Shape).Idx → EReal
abbrev Weights : Type := (⟨2, ![512, 1024]⟩ : Shape).Idx → EReal
abbrev Bias : Type := (⟨1, ![512]⟩ : Shape).Idx → EReal

/-- Row `d` of the weights' half that starts at column `o`, contracted with prototype `j` of group `g`. -/
def proj (pv : Protos) (W : Weights) (g : Fin 2) (o : Nat) (ho : o + 512 ≤ 1024) (d : Fin 512) (j : Fin 64) : EReal :=
  ∑ k : Fin 512, W (ix2 d ⟨o + k.val, by have := k.isLt; omega⟩) * pv (ix3 g j k)

/-- Entry `d` of the mixed prototype of pair `q = 64 j + l`. -/
def mixed (pv : Protos) (W : Weights) (b : Bias) (d : Fin 512) (q : Fin 4096) : EReal :=
  (proj pv W 0 0 (by omega) d ⟨q.val / 64, by have := q.isLt; omega⟩
    + proj pv W 1 512 (by omega) d ⟨q.val % 64, by omega⟩) + b (ix1 d)

/-- The squared norm of the mixed prototype of pair `q`. -/
def norm2 (pv : Protos) (W : Weights) (b : Bias) (q : Fin 4096) : EReal :=
  ∑ d : Fin 512, mixed pv W b d q * mixed pv W b d q

/-- The squared distance of batch row `i` to a prototype `p · q` of squared norm `n q`, expanded:
    |x|² − 2 ⟨x, p⟩ + |p|², the factor 2 the float whose word is 0x40000000. -/
def dist (x : Batch) (p : Fin 512 → Fin 4096 → EReal) (n : Fin 4096 → EReal) (i : Fin 16384) (q : Fin 4096) : EReal :=
  ((∑ k : Fin 512, x (ix2 i k) * x (ix2 i k))
      - Ideal.ofBits .f32 0x40000000#32 * ∑ k : Fin 512, x (ix2 i k) * p k q) + n q

/-- The whole result array. -/
def result (x : Batch) (pv : Protos) (W : Weights) (b : Bias) : (⟨2, ![16384, 4096]⟩ : Shape).Idx → EReal :=
  fun j => dist x (mixed pv W b) (norm2 pv W b) (j 0) (j 1)

/-- A sum over 1024 indices is the sum over the first 512 plus the sum over the last 512. -/
theorem sum_halves {M : Type*} [AddCommMonoid M] (f : Fin 1024 → M) :
    ∑ k : Fin 1024, f k
      = (∑ k : Fin 512, f ⟨0 + k.val, by have := k.isLt; omega⟩)
        + ∑ k : Fin 512, f ⟨512 + k.val, by have := k.isLt; omega⟩ := by
  refine (Fin.sum_univ_add (a := 512) (b := 512) f).trans ?_
  refine congrArg₂ (· + ·) (Finset.sum_congr rfl fun k _ => congrArg f (Fin.ext ?_))
    (Finset.sum_congr rfl fun k _ => congrArg f (Fin.ext ?_))
  · show k.val = 0 + k.val
    omega
  · rfl

/-- THE LAW. A vector of 1024 entries whose first half is prototype `q / 64` of group 0 and whose second half is
    prototype `q % 64` of group 1, contracted with row `d` of the weights and shifted by the bias, is entry `d`
    of the mixed prototype of pair `q`. -/
theorem concat_contraction (pv : Protos) (W : Weights) (b : Bias) (d : Fin 512) (q : Fin 4096) (pair : Fin 1024 → EReal)
    (h0 : ∀ k : Fin 512, pair ⟨0 + k.val, by have := k.isLt; omega⟩
      = pv (ix3 (0 : Fin 2) (⟨q.val / 64, by have := q.isLt; omega⟩ : Fin 64) k))
    (h1 : ∀ k : Fin 512, pair ⟨512 + k.val, by have := k.isLt; omega⟩
      = pv (ix3 (1 : Fin 2) (⟨q.val % 64, by omega⟩ : Fin 64) k)) :
    (∑ k : Fin 1024, pair k * W (ix2 d k)) + b (ix1 d) = mixed pv W b d q := by
  unfold mixed proj
  refine congrArg (· + b (ix1 d)) ((sum_halves fun k => pair k * W (ix2 d k)).trans ?_)
  refine congrArg₂ (· + ·) (Finset.sum_congr rfl fun k _ => ?_) (Finset.sum_congr rfl fun k _ => ?_)
  · show pair _ * W _ = W _ * pv _
    rw [h0 k, mul_comm]
  · show pair _ * W _ = W _ * pv _
    rw [h1 k, mul_comm]

end Cert.Spec

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.HostStage.lean ====
/-
  What the host operations leave in the three arrays the mixing kernel is entered with.

  From the prototypes pv[g, j, k], the weights W[d, c] and the bias b[d] the host forms, for each group g, the
  projection of the group's prototypes through one half of the weights,

      proj_g[d, j] = ∑ k, W[d, o_g + k] · pv[g, j, k]      (o_0 = 0, o_1 = 512)

  — a slice of the weights' columns times the transpose of the group's slice of the prototypes —, and the bias as a
  column. They are read here at an entry: a slice reads its operand shifted by the slice's start, a transpose swaps
  the coordinates, dropping the leading unit axis keeps the others, and the matrix product is the sum over its one
  contraction coordinate.
-/
import proofs.«166820_j80049600463053_2_alg».proof.Proof.Gen.KernelIdeal.Frame
import proofs.«166820_j80049600463053_2_alg».proof.Proof.Spec
import proofs.«166820_j80049600463053_2_alg».proof.Proof.LibColumn
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostStage

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- Group `g`'s prototypes projected through the weights' half that starts at column `o`, as the host computes it. -/
def projOf (g o : Nat) (hg : S2x64x512.Slices ![g, 0, 0] S1x64x512) (ho : S512x1024.Slices ![0, o] S512x512)
    (pv : (⟨S2x64x512, .f32⟩ : BufTy).Contents (Elt F)) (W : (⟨S512x1024, .f32⟩ : BufTy).Contents (Elt F)) :
    (⟨S512x64, .f32⟩ : BufTy).Contents (Elt F) :=
  Host.dotGeneral dot_S512x512_S512x64_S512x64_1_0_0_1_n_n none (extractStridedSlice S512x512 ![0, o] W ho)
    (transpose S512x64 [1, 0] (shapeCast S64x512 (extractStridedSlice S1x64x512 ![g, 0, 0] pv hg) shapeCasts_S1x64x512_S64x512)
      transposes_S64x512_S512x64_1_0)

/-- The bias as a column. -/
def biasOf (b : (⟨S512, .f32⟩ : BufTy).Contents (Elt F)) : (⟨S512x1, .f32⟩ : BufTy).Contents (Elt F) :=
  shapeCast S512x1 b shapeCasts_S512_S512x1

/-! ## The host operations' results, from any memory they start in -/

theorem after_first (X : Valuation τ sig (Elt F)) :
    StableHlo.after hostOps0 X (Proc.devRef .tc main_v7)
      = projOf 0 0 slices_S2x64x512_S1x64x512_0_0_0 slices_S512x1024_S512x512_0_0
          (X (Proc.devRef .tc main_arg1)) (X (Proc.devRef .tc main_arg2)) := by
  dsimp only [hostOps0]
  after_results
  rfl

theorem after_second (X : Valuation τ sig (Elt F)) :
    StableHlo.after hostOps0 X (Proc.devRef .tc main_v9)
      = projOf 1 512 slices_S2x64x512_S1x64x512_1_0_0 slices_S512x1024_S512x512_0_512
          (X (Proc.devRef .tc main_arg1)) (X (Proc.devRef .tc main_arg2)) := by
  dsimp only [hostOps0]
  after_results
  rfl

theorem after_bias (X : Valuation τ sig (Elt F)) :
    StableHlo.after hostOps0 X (Proc.devRef .tc main_v10) = biasOf (X (Proc.devRef .tc main_arg3)) := by
  dsimp only [hostOps0]
  after_results
  rfl

/-! ## The product's operand indices: output (d, j) and contraction coordinate k read the weights' slice at (d, k)
    and the transposed prototypes at (k, j) -/

theorem lhs_row (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_contr (i : S512x64.Idx) (q : dot_S512x512_S512x64_S512x64_1_0_0_1_n_n.contr.Idx) : (dot_S512x512_S512x64_S512x64_1_0_0_1_n_n.lhsIdx i q 1).val = (q ⟨0, by decide⟩).val :=
  dot_S512x512_S512x64_S512x64_1_0_0_1_n_n.lhsIdx_val_of_single rfl i q
theorem rhs_contr (i : S512x64.Idx) (q : dot_S512x512_S512x64_S512x64_1_0_0_1_n_n.contr.Idx) : (dot_S512x512_S512x64_S512x64_1_0_0_1_n_n.rhsIdx i q 0).val = (q ⟨0, by decide⟩).val :=
  dot_S512x512_S512x64_S512x64_1_0_0_1_n_n.rhsIdx_val_of_single rfl i q
theorem rhs_col (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- THE PROJECTION AT AN ENTRY: the specification's contraction of weight row `d` (from column `o`) with prototype
    `j` of group `g`. -/
theorem projOf_apply (g : Fin 2) (o : Nat) (h : o + 512 ≤ 1024) (hg : S2x64x512.Slices ![g.val, 0, 0] S1x64x512)
    (ho : S512x1024.Slices ![0, o] S512x512) (pv : Cert.Spec.Protos) (W : Cert.Spec.Weights) (d : Fin 512) (j : Fin 64) :
    projOf (F := Ideal) g.val o hg ho pv W (ix2 d j) = Cert.Spec.proj pv W g o h d j := by
  unfold projOf Cert.Spec.proj
  simp only [Host.dotGeneral]
  refine (Ideal.dotGeneral_apply dot_S512x512_S512x64_S512x64_1_0_0_1_n_n none _ _ _ (ix2 d j)).trans ?_
  rw [← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 d j) ((contrEquiv1 dot_S512x512_S512x64_S512x64_1_0_0_1_n_n 512 rfl rfl).symm k) = ix2 d k := funext fun a => Fin.ext (by
    match a with
    | ⟨0, _⟩ => exact lhs_row _ _
    | ⟨1, _⟩ => exact (lhs_contr _ _).trans hk)
  have er : dot_S512x512_S512x64_S512x64_1_0_0_1_n_n.rhsIdx (ix2 d j) ((contrEquiv1 dot_S512x512_S512x64_S512x64_1_0_0_1_n_n 512 rfl rfl).symm k) = ix2 k j := funext fun a => Fin.ext (by
    match a with
    | ⟨0, _⟩ => exact (rhs_contr _ _).trans hk
    | ⟨1, _⟩ => exact rhs_col _ _)
  rw [el, er]
  refine congrArg₂ (· * ·) (slice2_axis1_eq o W ho d k) ?_
  refine (transpose_ix2_apply _ transposes_S64x512_S512x64_1_0 k j).trans ?_
  refine (shapeCast_1ab_ab_apply _ shapeCasts_S1x64x512_S64x512 j k).trans ?_
  exact extractStridedSlice_apply ![g.val, 0, 0] pv hg (ix3 (0 : Fin 1) j k) (ix3 g j k) (fun a => by
    match a with
    | ⟨0, _⟩ => rfl
    | ⟨1, _⟩ => exact (Nat.zero_add _).symm
    | ⟨2, _⟩ => exact (Nat.zero_add _).symm)

/-- The bias column at an entry. -/
theorem biasOf_apply (b : Cert.Spec.Bias) (d : Fin 512) (u : Fin 1) : biasOf (F := Ideal) b (ix2 d u) = b (ix1 d) :=
  Cert.LibColumn.shapeCast_a_a1_apply b shapeCasts_S512_S512x1 d u

end Cert.KernelIdeal.HostStage

end
-- ==== Proof.MixBody.lean ====
/-
  What the mixing kernel's body computes from its three blocks, read at an entry.

  The body holds the two projections a, c (each 512 × 64: entry d of the projection of prototype j of its group) and
  the bias as a column b (512 × 1). It forms, for every entry d and every pair (j, l), the value
  (a[d, j] + c[d, l]) + b[d, 0] — a spread along l, c along j, b along both — and lays the pairs out in one row of
  4096, pair (j, l) at position q = 64 j + l; so at (d, q) it holds (a[d, q / 64] + c[d, q % 64]) + b[d, 0].
  It stores that array (narrowed to a shorter float format: the identity on extended reals) and, per pair q, the sum
  over the 512 entries d of its squares.
-/
import proofs.«166820_j80049600463053_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MixBody

open Cert.KernelIdeal Cert.KernelIdeal.Gen Idealize.ShloMosaic Idealize.ShloMosaic.ValueIdx

/-- The first projection, given a unit axis behind its columns and spread along it: at (d, j, l) it is a[d, j]. -/
theorem spread_first (a : FVec Ideal S512x64 .f32) (d : Fin 512) (j l : Fin 64) :
    broadcastTo S512x64x64 (shapeCast S512x64x1 (shapeCast S512x64 a shapeCasts_S512x64_S512x64)
        shapeCasts_S512x64_S512x64x1) broadcasts_S512x64x1_S512x64x64 (ix3 d j l) = a (ix2 d j) :=
  (broadcastTo_apply _ broadcasts_S512x64x1_S512x64x64 (ix3 d j l) (ix3 d j (0 : Fin 1))
      (fun ax => by match ax with | ⟨0, _⟩ => rfl | ⟨1, _⟩ => rfl | ⟨2, _⟩ => rfl)).trans
    ((shapeCast_apply _ shapeCasts_S512x64_S512x64x1 (ix3 d j (0 : Fin 1)) (ix2 d j) (by
        rw [Shape.rowMajor_val_two, Shape.rowMajor_val_three]
        show d.val * 64 + j.val = (d.val * 64 + j.val) * 1 + 0
        omega)).trans (congrFun (shapeCast_self a _) _))

/-- The second projection, given a unit axis before its columns and spread along it: at (d, j, l) it is c[d, l]. -/
theorem spread_second (c : FVec Ideal S512x64 .f32) (d : Fin 512) (j l : Fin 64) :
    broadcastTo S512x64x64 (shapeCast S512x1x64 (shapeCast S512x64 c shapeCasts_S512x64_S512x64)
        shapeCasts_S512x64_S512x1x64) broadcasts_S512x1x64_S512x64x64 (ix3 d j l) = c (ix2 d l) :=
  (broadcastTo_apply _ broadcasts_S512x1x64_S512x64x64 (ix3 d j l) (ix3 d (0 : Fin 1) l)
      (fun ax => by match ax with | ⟨0, _⟩ => rfl | ⟨1, _⟩ => rfl | ⟨2, _⟩ => rfl)).trans
    ((shapeCast_apply _ shapeCasts_S512x64_S512x1x64 (ix3 d (0 : Fin 1) l) (ix2 d l) (by
        rw [Shape.rowMajor_val_two, Shape.rowMajor_val_three]
        show d.val * 64 + l.val = (d.val * 1 + 0) * 64 + l.val
        omega)).trans (congrFun (shapeCast_self c _) _))

/-- The bias column, given a second unit axis and spread along both: at (d, j, l) it is b[d, 0]. -/
theorem spread_bias (b : FVec Ideal S512x1 .f32) (d : Fin 512) (j l : Fin 64) :
    broadcastTo S512x64x64 (shapeCast S512x1x1 (shapeCast S512x1 b shapeCasts_S512x1_S512x1)
        shapeCasts_S512x1_S512x1x1) broadcasts_S512x1x1_S512x64x64 (ix3 d j l) = b (ix2 d (0 : Fin 1)) :=
  (broadcastTo_apply _ broadcasts_S512x1x1_S512x64x64 (ix3 d j l) (ix3 d (0 : Fin 1) (0 : Fin 1))
      (fun ax => by match ax with | ⟨0, _⟩ => rfl | ⟨1, _⟩ => rfl | ⟨2, _⟩ => rfl)).trans
    ((shapeCast_apply _ shapeCasts_S512x1_S512x1x1 (ix3 d (0 : Fin 1) (0 : Fin 1)) (ix2 d (0 : Fin 1)) (by
        rw [Shape.rowMajor_val_two, Shape.rowMajor_val_three]
        show d.val * 1 + 0 = (d.val * 1 + 0) * 1 + 0
        omega)).trans (congrFun (shapeCast_self b _) _))

/-- THE MIXED PROTOTYPES AT AN ENTRY: pair q = 64 j + l sits at (j, l) = (q / 64, q % 64). -/
theorem pair_apply (a c : FVec Ideal S512x64 .f32) (b : FVec Ideal S512x1 .f32) (d : Fin 512) (q : Fin 4096) :
    k0_pay1 (F := Ideal) a c b (ix2 d q)
      = (a (ix2 d (⟨q.val / 64, by have := q.isLt; omega⟩ : Fin 64)) + c (ix2 d (⟨q.val % 64, by omega⟩ : Fin 64)))
        + b (ix2 d (0 : Fin 1)) := by
  have hq := q.isLt
  unfold k0_pay1
  refine (shapeCast_apply _ shapeCasts_S512x64x64_S512x4096 (ix2 d q)
    (ix3 d (⟨q.val / 64, by omega⟩ : Fin 64) (⟨q.val % 64, by omega⟩ : Fin 64)) ?_).trans ?_
  · rw [Shape.rowMajor_val_three, Shape.rowMajor_val_two]
    show (d.val * 64 + q.val / 64) * 64 + q.val % 64 = d.val * 4096 + q.val
    omega
  · exact congrArg₂ (· + ·) (congrArg₂ (· + ·) (spread_first a d _ _) (spread_second c d _ _)) (spread_bias b d _ _)

/-- THE SQUARED NORMS AT AN ENTRY: the sum over the 512 entries of the pair's mixed prototype of their squares. -/
theorem norm_apply (a c : FVec Ideal S512x64 .f32) (b : FVec Ideal S512x1 .f32) (u : Fin 1) (q : Fin 4096) :
    k0_pay2 (F := Ideal) a c b (ix2 u q)
      = ∑ d : Fin 512, k0_pay1 (F := Ideal) a c b (ix2 d q) * k0_pay1 (F := Ideal) a c b (ix2 d q) := by
  unfold k0_pay2
  refine (shapeCast_a_1a_apply _ shapeCasts_S4096_S1x4096 u q).trans ?_
  refine (Ideal.multiReduction_add_single (mulf (k0_pay1 (F := Ideal) a c b) (k0_pay1 (F := Ideal) a c b)) 0x00000000#32
    reduces_S512x4096_S4096 (.inl rfl) rfl (ix1 q)).trans ?_
  exact Finset.sum_congr rfl fun d _ => congrArg (fun i => k0_pay1 (F := Ideal) a c b i * k0_pay1 (F := Ideal) a c b i)
    (funext fun ax => Fin.ext (by match ax with | ⟨0, _⟩ => rfl | ⟨1, _⟩ => rfl))

/-- The stored prototypes are the mixed prototypes: narrowing the float format changes no extended real. -/
theorem stored_apply (a c : FVec Ideal S512x64 .f32) (b : FVec Ideal S512x1 .f32) (i : S512x4096.Idx) :
    k0_pay3 (F := Ideal) a c b i = k0_pay1 (F := Ideal) a c b i := rfl

end Cert.KernelIdeal.MixBody

end
-- ==== Proof.MixValue.lean ====
/-
  The two arrays the mixing kernel leaves, each as one function of the three arrays it is entered with.

  The kernel's grid is a single point, and every window's block is its whole array (block index zero on both axes):
  what the point reads IS the three arrays, and what it writes back IS the body's two results, whole. So after the
  region the stored prototypes are the body's first result of the entry arrays, and the squared norms its second.
-/
import proofs.«166820_j80049600463053_2_alg».proof.Proof.Gen.KernelIdeal.Frame
import Idealize.ShloMosaic.Lib.Pipeline.Value

set_option maxRecDepth 16384

noncomputable section

namespace Cert.KernelIdeal.MixValue

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- At the grid's one point every window's block index is zero on both axes. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The blocks the point reads are the whole entry arrays -/

theorem first_whole (c : Dev nD) (t : Fin cfg0.N) : iblk0 V c 0 t = V c main_v7 := by
  obtain ⟨e0, e1, -⟩ := idx_zero t
  funext y
  show V c main_v7 (((cfg0.win 0).blk t).view.emb y) = V c main_v7 y
  refine congrArg _ (funext fun a => Fin.ext ?_)
  match a with
  | ⟨0, _⟩ => show win0_0.index t (0 : Fin 2) * 512 + 1 * (y 0).val = (y 0).val; omega
  | ⟨1, _⟩ => show win0_0.index t (1 : Fin 2) * 64 + 1 * (y 1).val = (y 1).val; omega

theorem second_whole (c : Dev nD) (t : Fin cfg0.N) : iblk0 V c 1 t = V c main_v9 := by
  obtain ⟨-, -, e0, e1, -⟩ := idx_zero t
  funext y
  show V c main_v9 (((cfg0.win 1).blk t).view.emb y) = V c main_v9 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 64 + 1 * (y 1).val = (y 1).val; omega

theorem bias_whole (c : Dev nD) (t : Fin cfg0.N) : iblk0 V c 2 t = V c main_v10 := by
  obtain ⟨-, -, -, -, e0, e1, -⟩ := idx_zero t
  funext y
  show V c main_v10 (((cfg0.win 2).blk t).view.emb y) = V c main_v10 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 1 + 1 * (y 1).val = (y 1).val; omega

/-! ## The stored prototypes -/

/-- What the point writes back to the prototypes' array is the body's first result of the entry arrays, whole. -/
theorem stored_flushed (c : Dev nD) (t : Fin cfg0.N) :
    (dat0 V c).flushed 3 t
      = ((cfg0.win 3).blk t).view.read (Elt F) (k0_pay3 (V c main_v7) (V c main_v9) (V c main_v10)) := by
  show (cfg0.win 3).cut (grid0.coords t) ((dat0 V c).after 3 t) = _
  rw [after0_3]
  unfold out0_3
  rw [View.canon_unit_zero origin]
  simp only [View.ld_unit_zero (S := S512x64) origin, View.ld_unit_zero (S := S512x1) origin]
  rw [first_whole V c t, second_whole V c t, bias_whole V c t]
  obtain ⟨-, -, -, -, -, -, e0, e1, -⟩ := idx_zero t
  funext y
  show k0_pay3 (V c main_v7) (V c main_v9) (V c main_v10) y
    = k0_pay3 (V c main_v7) (V c main_v9) (V c main_v10) (((cfg0.win 3).blk t).view.emb y)
  refine congrArg _ (funext fun a => Fin.ext ?_)
  match a with
  | ⟨0, _⟩ => show (y 0).val = win0_3.index t (0 : Fin 2) * 512 + 1 * (y 0).val; omega
  | ⟨1, _⟩ => show (y 1).val = win0_3.index t (1 : Fin 2) * 4096 + 1 * (y 1).val; omega

theorem stored_mem (t : Fin cfg0.N) (i : S512x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v11_0).slice (win0_3.rect t)).set ↔ _
  rw [View.set_slice_whole, Rect.mem_set_unit]
  exact Iff.rfl

theorem stored_cover (i : S512x4096.Idx) :
    ∃ t : Fin cfg0.N, (cfg0.win 3).flush t = true ∧ i ∈ ((cfg0.win 3).blk t).view.set := by
  have hi0 : (i 0).val < 512 := (i 0).isLt
  have hi1 : (i 1).val < 4096 := (i 1).isLt
  obtain ⟨-, -, -, -, -, -, e0, e1, -⟩ := idx_zero t0_0
  refine ⟨t0_0, flush0_3 _, ?_⟩
  rw [stored_mem]
  intro a
  match a with
  | ⟨0, _⟩ => show win0_3.index t0_0 (0 : Fin 2) * 512 ≤ (i 0).val ∧ (i 0).val < win0_3.index t0_0 (0 : Fin 2) * 512 + 512; omega
  | ⟨1, _⟩ => show win0_3.index t0_0 (1 : Fin 2) * 4096 ≤ (i 1).val ∧ (i 1).val < win0_3.index t0_0 (1 : Fin 2) * 4096 + 4096; omega

/-- THE STORED PROTOTYPES after the region. -/
theorem stored_final (c : Dev nD) :
    (dat0 V c).arrAt 3 cfg0.N = k0_pay3 (V c main_v7) (V c main_v9) (V c main_v10) :=
  (dat0 V c).arrAt_eq_of_cover 3 _ (fun t _ => stored_flushed V c t) stored_cover

/-! ## The squared norms -/

theorem norms_flushed (c : Dev nD) (t : Fin cfg0.N) :
    (dat0 V c).flushed 4 t
      = ((cfg0.win 4).blk t).view.read (Elt F) (k0_pay2 (V c main_v7) (V c main_v9) (V c main_v10)) := by
  show (cfg0.win 4).cut (grid0.coords t) ((dat0 V c).after 4 t) = _
  rw [after0_4]
  unfold out0_4
  rw [View.canon_unit_zero origin]
  simp only [View.ld_unit_zero (S := S512x64) origin, View.ld_unit_zero (S := S512x1) origin]
  rw [first_whole V c t, second_whole V c t, bias_whole V c t]
  obtain ⟨-, -, -, -, -, -, -, -, e0, e1⟩ := idx_zero t
  funext y
  show k0_pay2 (V c main_v7) (V c main_v9) (V c main_v10) y
    = k0_pay2 (V c main_v7) (V c main_v9) (V c main_v10) (((cfg0.win 4).blk t).view.emb y)
  refine congrArg _ (funext fun a => Fin.ext ?_)
  match a with
  | ⟨0, _⟩ => show (y 0).val = win0_4.index t (0 : Fin 2) * 1 + 1 * (y 0).val; omega
  | ⟨1, _⟩ => show (y 1).val = win0_4.index t (1 : Fin 2) * 4096 + 1 * (y 1).val; omega

theorem norms_mem (t : Fin cfg0.N) (i : S1x4096.Idx) :
    i ∈ ((cfg0.win 4).blk t).view.set ↔ ∀ a : Fin 2, win0_4.index t a * S1x4096.size a ≤ (i a).val
      ∧ (i a).val < win0_4.index t a * S1x4096.size a + S1x4096.size a := by
  show i ∈ ((View.whole main_v11_1).slice (win0_4.rect t)).set ↔ _
  rw [View.set_slice_whole, Rect.mem_set_unit]
  exact Iff.rfl

theorem norms_cover (i : S1x4096.Idx) :
    ∃ t : Fin cfg0.N, (cfg0.win 4).flush t = true ∧ i ∈ ((cfg0.win 4).blk t).view.set := by
  have hi0 : (i 0).val < 1 := (i 0).isLt
  have hi1 : (i 1).val < 4096 := (i 1).isLt
  obtain ⟨-, -, -, -, -, -, -, -, e0, e1⟩ := idx_zero t0_0
  refine ⟨t0_0, flush0_4 _, ?_⟩
  rw [norms_mem]
  intro a
  match a with
  | ⟨0, _⟩ => show win0_4.index t0_0 (0 : Fin 2) * 1 ≤ (i 0).val ∧ (i 0).val < win0_4.index t0_0 (0 : Fin 2) * 1 + 1; omega
  | ⟨1, _⟩ => show win0_4.index t0_0 (1 : Fin 2) * 4096 ≤ (i 1).val ∧ (i 1).val < win0_4.index t0_0 (1 : Fin 2) * 4096 + 4096; omega

/-- THE SQUARED NORMS after the region. -/
theorem norms_final (c : Dev nD) :
    (dat0 V c).arrAt 4 cfg0.N = k0_pay2 (V c main_v7) (V c main_v9) (V c main_v10) :=
  (dat0 V c).arrAt_eq_of_cover 4 _ (fun t _ => norms_flushed V c t) norms_cover

end Cert.KernelIdeal.MixValue

end
-- ==== Proof.DistBody.lean ====
/-
  What the distance kernel's body computes from its three blocks, read at an entry.

  The body holds a block x of 1024 batch rows (1024 × 512), the mixed prototypes p (512 × 4096) and their squared
  norms n (1 × 4096). At row r and pair q it leaves

      (∑ k, x[r, k]²  −  2 · ∑ k, x[r, k] · p[k, q])  +  n[0, q]:

  the row's sum of squares is a sum over the lane axis, kept as a column and spread along the row; the product is a
  block matrix product into a zero accumulator, its contraction index read by its one coordinate; the norms are one
  row spread down the rows. A change of float format is the identity on extended reals.
-/
import proofs.«166820_j80049600463053_2_alg».proof.Proof.Gen.KernelIdeal.Skeleton
import proofs.«166820_j80049600463053_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DistBody

open Cert.KernelIdeal Cert.KernelIdeal.Gen Idealize.ShloMosaic Idealize.ShloMosaic.ValueIdx

/-! ## The block product's operand indices: output (r, q) and contraction coordinate k read x at (r, k) and p at (k, q) -/

theorem lhs_row (i : S1024x4096.Idx) (q : dot_S1024x512_S512x4096_S1024x4096_1_0_0_1_n_n.contr.Idx) :
    (dot_S1024x512_S512x4096_S1024x4096_1_0_0_1_n_n.lhsIdx i q 0).val = (i 0).val := by
  unfold DotDims.lhsIdx
  rw [dif_neg (show ¬(0 : Fin S1024x512.rank) ∈ dot_S1024x512_S512x4096_S1024x4096_1_0_0_1_n_n.lhsBatch by decide), dif_pos (show (0 : Fin S1024x512.rank) ∈ dot_S1024x512_S512x4096_S1024x4096_1_0_0_1_n_n.lhsNonContracting by decide)]
  rfl
theorem lhs_contr (i : S1024x4096.Idx) (q : dot_S1024x512_S512x4096_S1024x4096_1_0_0_1_n_n.contr.Idx) :
    (dot_S1024x512_S512x4096_S1024x4096_1_0_0_1_n_n.lhsIdx i q 1).val = (q ⟨0, by decide⟩).val :=
  dot_S1024x512_S512x4096_S1024x4096_1_0_0_1_n_n.lhsIdx_val_of_single rfl i q
theorem rhs_contr (i : S1024x4096.Idx) (q : dot_S1024x512_S512x4096_S1024x4096_1_0_0_1_n_n.contr.Idx) :
    (dot_S1024x512_S512x4096_S1024x4096_1_0_0_1_n_n.rhsIdx i q 0).val = (q ⟨0, by decide⟩).val :=
  dot_S1024x512_S512x4096_S1024x4096_1_0_0_1_n_n.rhsIdx_val_of_single rfl i q
theorem rhs_col (i : S1024x4096.Idx) (q : dot_S1024x512_S512x4096_S1024x4096_1_0_0_1_n_n.contr.Idx) :
    (dot_S1024x512_S512x4096_S1024x4096_1_0_0_1_n_n.rhsIdx i q 1).val = (i 1).val := by
  unfold DotDims.rhsIdx
  rw [dif_neg (show ¬(1 : Fin S512x4096.rank) ∈ dot_S1024x512_S512x4096_S1024x4096_1_0_0_1_n_n.rhsBatch by decide), dif_pos (show (1 : Fin S512x4096.rank) ∈ dot_S1024x512_S512x4096_S1024x4096_1_0_0_1_n_n.rhsNonContracting by decide)]
  rfl

/-- The block product into a zero accumulator, at (r, q): the sum over the 512 contraction coordinates. -/
theorem product_apply (x : FVec Ideal S1024x512 .bf16) (p : FVec Ideal S512x4096 .bf16) (r : Fin 1024) (q : Fin 4096) :
    matmul dot_S1024x512_S512x4096_S1024x4096_1_0_0_1_n_n none x p (constant (F := Ideal) S1024x4096 .f32 0x00000000#32) (ix2 r q)
      = ∑ k : Fin 512, x (ix2 r k) * p (ix2 k q) := by
  refine (Ideal.matmul_constant_zero_apply dot_S1024x512_S512x4096_S1024x4096_1_0_0_1_n_n none x p (ix2 r q)).trans ?_
  rw [← Equiv.sum_comp (contrEquiv1 dot_S1024x512_S512x4096_S1024x4096_1_0_0_1_n_n 512 rfl rfl).symm]
  refine Finset.sum_congr rfl fun k _ => ?_
  have hk := contrEquiv1_symm_val dot_S1024x512_S512x4096_S1024x4096_1_0_0_1_n_n 512 rfl rfl k
  have el : dot_S1024x512_S512x4096_S1024x4096_1_0_0_1_n_n.lhsIdx (ix2 r q) ((contrEquiv1 dot_S1024x512_S512x4096_S1024x4096_1_0_0_1_n_n 512 rfl rfl).symm k) = ix2 r k := funext fun a => Fin.ext (by
    match a with
    | ⟨0, _⟩ => exact lhs_row _ _
    | ⟨1, _⟩ => exact (lhs_contr _ _).trans hk)
  have er : dot_S1024x512_S512x4096_S1024x4096_1_0_0_1_n_n.rhsIdx (ix2 r q) ((contrEquiv1 dot_S1024x512_S512x4096_S1024x4096_1_0_0_1_n_n 512 rfl rfl).symm k) = ix2 k q := funext fun a => Fin.ext (by
    match a with
    | ⟨0, _⟩ => exact (rhs_contr _ _).trans hk
    | ⟨1, _⟩ => exact rhs_col _ _)
  rw [el, er]

/-- The row's sum of squares, kept as a column and spread along the row, at (r, q). -/
theorem rowsq_apply (x : FVec Ideal S1024x512 .f32) (r : Fin 1024) (q : Fin 4096) :
    broadcastTo S1024x4096 (shapeCast S1024x1 (multiReduction (F := Ideal) .add [1] S1024 (mulf x x) 0x00000000#32
        reduces_S1024x512_S1024 (.inl rfl) rfl) shapeCasts_S1024_S1024x1) broadcasts_S1024x1_S1024x4096 (ix2 r q)
      = ∑ k : Fin 512, x (ix2 r k) * x (ix2 r k) := by
  refine (Cert.LibColumn.broadcastTo_a1_ab_apply _ broadcasts_S1024x1_S1024x4096 r q).trans ?_
  refine (Cert.LibColumn.shapeCast_a_a1_apply _ shapeCasts_S1024_S1024x1 r 0).trans ?_
  refine (Ideal.multiReduction_add_single (mulf x x) 0x00000000#32 reduces_S1024x512_S1024 (.inl rfl) rfl (ix1 r)).trans ?_
  exact Finset.sum_congr rfl fun k _ => congrArg (fun i => x i * x i)
    (funext fun a => Fin.ext (by match a with | ⟨0, _⟩ => rfl | ⟨1, _⟩ => rfl))

/-- The norms' row spread down the rows, at (r, q). -/
theorem norms_apply (n : FVec Ideal S1x4096 .f32) (r : Fin 1024) (q : Fin 4096) :
    broadcastTo S1024x4096 (shapeCast S1x4096 n shapeCasts_S1x4096_S1x4096) broadcasts_S1x4096_S1024x4096 (ix2 r q)
      = n (ix2 (0 : Fin 1) q) :=
  (broadcastTo_1b_ab_apply _ broadcasts_S1x4096_S1024x4096 r q).trans (congrFun (shapeCast_self n _) _)

/-- THE BODY AT AN ENTRY. -/
theorem body_apply (x : FVec Ideal S1024x512 .f32) (p : FVec Ideal S512x4096 .bf16) (n : FVec Ideal S1x4096 .f32)
    (r : Fin 1024) (q : Fin 4096) :
    k1_pay1 (F := Ideal) x p n (ix2 r q)
      = ((∑ k : Fin 512, x (ix2 r k) * x (ix2 r k))
          - Ideal.ofBits .f32 0x40000000#32 * ∑ k : Fin 512, x (ix2 r k) * p (ix2 k q)) + n (ix2 (0 : Fin 1) q) := by
  have h1 := rowsq_apply x r q
  have h2 : matmul dot_S1024x512_S512x4096_S1024x4096_1_0_0_1_n_n none (truncf .bf16 x bitsLt_bf16_f32) (shapeCast S512x4096 p shapeCasts_S512x4096_S512x4096)
      (constant (F := Ideal) S1024x4096 .f32 0x00000000#32) (ix2 r q) = ∑ k : Fin 512, x (ix2 r k) * p (ix2 k q) := by
    rw [shapeCast_self]
    exact product_apply (truncf .bf16 x bitsLt_bf16_f32) p r q
  have h3 := norms_apply n r q
  exact congrArg₂ (· + ·) (congrArg₂ (· - ·) h1 (congrArg (Ideal.ofBits .f32 0x40000000#32 * ·) h2)) h3

end Cert.KernelIdeal.DistBody

end
-- ==== Proof.DistValue.lean ====
/-
  The result array the distance kernel leaves, as one function of the three arrays it is entered with.

  The grid has 16 points; point t reads rows 1024 t … 1024 t + 1023 of the batch and, whole, the mixed prototypes and
  their squared norms, and writes back rows 1024 t … 1024 t + 1023 of the result. The block it writes is the block of
  ONE whole-array function — at (i, q): (∑ k, x[i, k]² − 2 ∑ k, x[i, k] p[k, q]) + n[0, q] — because row r of the
  block at t is row 1024 t + r of the batch; and the 16 row bands fill the array (row i is in band i / 1024).
-/
import proofs.«166820_j80049600463053_2_alg».proof.Proof.Gen.KernelIdeal.Frame
import proofs.«166820_j80049600463053_2_alg».proof.Proof.DistBody
import Idealize.ShloMosaic.Lib.Pipeline.Value

set_option maxRecDepth 16384

noncomputable section

namespace Cert.KernelIdeal.DistValue

open Cert.KernelIdeal Cert.KernelIdeal.Gen Idealize.ShloMosaic Idealize.ShloMosaic.TcCoe Idealize.SL.Sem
open Idealize.ShloMosaic.Pipeline (Dat Cfg Window)
open Idealize.ShloMosaic.ValueIdx

/-- The squared distance of batch row `i` to the prototype in column `q` of `p`, whose squared norm is `n[0, q]`. -/
def distAt (x : FVec Ideal S16384x512 .f32) (p : FVec Ideal S512x4096 .bf16) (n : FVec Ideal S1x4096 .f32)
    (i : Fin 16384) (q : Fin 4096) : EReal :=
  ((∑ k : Fin 512, x (ix2 i k) * x (ix2 i k))
      - Ideal.ofBits .f32 0x40000000#32 * ∑ k : Fin 512, x (ix2 i k) * p (ix2 k q)) + n (ix2 (0 : Fin 1) q)

/-- The whole result array. -/
def distOf (x : FVec Ideal S16384x512 .f32) (p : FVec Ideal S512x4096 .bf16) (n : FVec Ideal S1x4096 .f32) :
    S16384x4096.Idx → EReal :=
  fun i => distAt x p n ⟨(i 0).val, (i 0).isLt⟩ ⟨(i 1).val, (i 1).isLt⟩

/-- A block of 1024 batch rows that is band `β` of the batch gives, at its row `r`, the distance of batch row
    `1024 β + r`. -/
theorem band_apply (x : FVec Ideal S16384x512 .f32) (p : FVec Ideal S512x4096 .bf16) (n : FVec Ideal S1x4096 .f32)
    (β : Nat) (hβ : β ≤ 15) (X : FVec Ideal S1024x512 .f32)
    (hX : ∀ (r : Fin 1024) (k : Fin 512),
      X (ix2 r k) = x (ix2 (⟨β * 1024 + r.val, by have := r.isLt; omega⟩ : Fin 16384) k))
    (r : Fin 1024) (q : Fin 4096) :
    k1_pay1 (F := Ideal) X p n (ix2 r q) = distAt x p n ⟨β * 1024 + r.val, by have := r.isLt; omega⟩ q := by
  refine (DistBody.body_apply X p n r q).trans ?_
  unfold distAt
  refine congrArg (· + n (ix2 (0 : Fin 1) q)) (congrArg₂ (· - ·) (Finset.sum_congr rfl fun k _ => ?_)
    (congrArg (Ideal.ofBits .f32 0x40000000#32 * ·) (Finset.sum_congr rfl fun k _ => ?_)))
  · rw [hX r k]
  · rw [hX r k]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the batch's and the result's row bands move together, every other block
    index is zero, and the band number stays below 16. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 15 ∧ win1_3.index t (1 : Fin 2) = 0 :=
  (by decide +kernel : ∀ t : Fin grid1.N, _)

/-- Every row band is some point's. -/
theorem idx_onto : ∀ q0 : Fin 16, ∃ t : Fin cfg1.N, win1_3.index t = ![q0.val, 0] :=
  (by decide +kernel : ∀ q0 : Fin 16, ∃ t : Fin grid1.N, win1_3.index t = ![q0.val, 0])

/-- Every point reads the mixed prototypes whole, -/
theorem protos_whole (c : Dev nD) (t : Fin cfg1.N) : iblk1 V c 1 t = V c main_v11_0 := by
  obtain ⟨-, -, e0, e1, -⟩ := idx_facts t
  funext y
  show V c main_v11_0 (((cfg1.win 1).blk t).view.emb y) = V c main_v11_0 y
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 4096 + 1 * (y 1).val = (y 1).val; omega

/-- and their squared norms whole. -/
theorem norms_whole (c : Dev nD) (t : Fin cfg1.N) : iblk1 V c 2 t = V c main_v11_1 := by
  obtain ⟨-, -, -, -, e0, e1, -⟩ := idx_facts t
  funext y
  show V c main_v11_1 (((cfg1.win 2).blk t).view.emb y) = V c main_v11_1 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 4096 + 1 * (y 1).val = (y 1).val; omega

/-- WHAT POINT `t` WRITES BACK is block `t` of the whole-array function of the entry arrays. -/
theorem flushed_eq (c : Dev nD) (t : Fin cfg1.N) :
    (dat1 V c).flushed 3 t
      = ((cfg1.win 3).blk t).view.read (Elt Ideal) (distOf (V c main_arg0) (V c main_v11_0) (V c main_v11_1)) := by
  show (cfg1.win 3).cut (grid1.coords t) ((dat1 V c).after 3 t) = _
  rw [after1_3]
  unfold out1_3
  rw [View.canon_unit_zero origin]
  simp only [View.ld_unit_zero (S := S1024x512) origin, View.ld_unit_zero (S := S512x4096) origin,
    View.ld_unit_zero (S := S1x4096) origin]
  rw [protos_whole V c t, norms_whole V c t]
  obtain ⟨e00, e01, -, -, -, -, e30, e31⟩ := idx_facts t
  funext y
  have h0 : (y 0).val < 1024 := (y 0).isLt
  have h1 : (y 1).val < 4096 := (y 1).isLt
  have hy : y = ix2 (⟨(y 0).val, h0⟩ : Fin 1024) (⟨(y 1).val, h1⟩ : Fin 4096) :=
    funext fun a => by match a with | ⟨0, _⟩ => rfl | ⟨1, _⟩ => rfl
  have key := band_apply (V c main_arg0) (V c main_v11_0) (V c main_v11_1) (win1_3.index t (0 : Fin 2)) e30
    (iblk1 V c 0 t) (fun r k => by
      show V c main_arg0 (((cfg1.win 0).blk t).view.emb (ix2 r k)) = _
      refine congrArg _ (funext fun a => Fin.ext ?_)
      match a with
      | ⟨0, _⟩ => show win1_0.index t (0 : Fin 2) * 1024 + 1 * r.val = win1_3.index t (0 : Fin 2) * 1024 + r.val; omega
      | ⟨1, _⟩ => show win1_0.index t (1 : Fin 2) * 512 + 1 * k.val = k.val; omega)
    ⟨(y 0).val, h0⟩ ⟨(y 1).val, h1⟩
  refine (congrArg (k1_pay1 (F := Ideal) (iblk1 V c 0 t) (V c main_v11_0) (V c main_v11_1)) hy).trans (key.trans ?_)
  show distAt _ _ _ _ _ = distAt (V c main_arg0) (V c main_v11_0) (V c main_v11_1)
    ⟨((((cfg1.win 3).blk t).view.emb y) 0).val, _⟩ ⟨((((cfg1.win 3).blk t).view.emb y) 1).val, _⟩
  refine congrArg₂ (distAt (V c main_arg0) (V c main_v11_0) (V c main_v11_1)) (Fin.ext ?_) (Fin.ext ?_)
  · show win1_3.index t (0 : Fin 2) * 1024 + (y 0).val = win1_3.index t (0 : Fin 2) * 1024 + 1 * (y 0).val
    omega
  · show (y 1).val = win1_3.index t (1 : Fin 2) * 4096 + 1 * (y 1).val
    omega

/-- An index of the result is in point `t`'s block iff each coordinate is in the block's range on its axis. -/
theorem mem_blk (t : Fin cfg1.N) (i : S16384x4096.Idx) :
    i ∈ ((cfg1.win 3).blk t).view.set ↔ ∀ a : Fin 2, win1_3.index t a * S1024x4096.size a ≤ (i a).val
      ∧ (i a).val < win1_3.index t a * S1024x4096.size a + S1024x4096.size a := by
  show i ∈ ((View.whole main_v12).slice (win1_3.rect t)).set ↔ _
  rw [View.set_slice_whole, Rect.mem_set_unit]
  exact Iff.rfl

/-- The 16 row bands fill the result: row `i` is in band `i / 1024`. -/
theorem cover (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  obtain ⟨t, ht⟩ := idx_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 4096 ≤ (i 1).val ∧ (i 1).val < win1_3.index t (1 : Fin 2) * 4096 + 4096; omega

/-- THE RESULT ARRAY after the region. -/
theorem final (c : Dev nD) :
    (dat1 V c).arrAt 3 cfg1.N = distOf (V c main_arg0) (V c main_v11_0) (V c main_v11_1) :=
  (dat1 V c).arrAt_eq_of_cover 3 _ (fun t _ => flushed_eq V c t) cover

end Cert.KernelIdeal.DistValue

end
-- ==== Proof.KernelValue.lean ====
/-
  The idealized kernel's result is the specification's squared distance of the launch arrays.

  The pieces, composed along the run: the host operations leave the two projections and the bias column; the mixing
  kernel turns them into the mixed prototypes (entry (d, q): the mixed prototype of pair q at d) and their squared
  norms; the distance kernel, entered with those and with the batch as launched, leaves at (i, q) the squared
  distance of batch row i to pair q's mixed prototype.
-/
import proofs.«166820_j80049600463053_2_alg».proof.Proof.KernelRun
import proofs.«166820_j80049600463053_2_alg».proof.Proof.HostStage
import proofs.«166820_j80049600463053_2_alg».proof.Proof.MixBody
import proofs.«166820_j80049600463053_2_alg».proof.Proof.MixValue
import proofs.«166820_j80049600463053_2_alg».proof.Proof.DistValue
import proofs.«166820_j80049600463053_2_alg».proof.Proof.Spec

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The arrays the mixing kernel is entered with -/

theorem entry_first (c : Dev nD) :
    V1 m ρ c main_v7 = HostStage.projOf (F := Ideal) 0 0 slices_S2x64x512_S1x64x512_0_0_0 slices_S512x1024_S512x512_0_0 (m ((c : Thread nD τ).loc main_arg1)) (m ((c : Thread nD τ).loc main_arg2)) :=
  HostStage.after_first (W0 m ρ c)

theorem entry_second (c : Dev nD) :
    V1 m ρ c main_v9 = HostStage.projOf (F := Ideal) 1 512 slices_S2x64x512_S1x64x512_1_0_0 slices_S512x1024_S512x512_0_512 (m ((c : Thread nD τ).loc main_arg1)) (m ((c : Thread nD τ).loc main_arg2)) :=
  HostStage.after_second (W0 m ρ c)

theorem entry_bias (c : Dev nD) : V1 m ρ c main_v10 = HostStage.biasOf (F := Ideal) (m ((c : Thread nD τ).loc main_arg3)) :=
  HostStage.after_bias (W0 m ρ c)

/-! ## The mixing kernel's two results -/

/-- The mixing body's value on the entry arrays, at (d, q), is entry d of the mixed prototype of pair q. -/
theorem mixed_body (c : Dev nD) (d : Fin 512) (q : Fin 4096) :
    k0_pay1 (F := Ideal) (V1 m ρ c main_v7) (V1 m ρ c main_v9) (V1 m ρ c main_v10) (ix2 d q)
      = Cert.Spec.mixed (m ((c : Thread nD τ).loc main_arg1)) (m ((c : Thread nD τ).loc main_arg2)) (m ((c : Thread nD τ).loc main_arg3)) d q := by
  refine (MixBody.pair_apply (V1 m ρ c main_v7) (V1 m ρ c main_v9) (V1 m ρ c main_v10) d q).trans ?_
  unfold Cert.Spec.mixed
  refine congrArg₂ (· + ·) (congrArg₂ (· + ·) ?_ ?_) ?_
  · exact (congrFun (entry_first m ρ c) _).trans (HostStage.projOf_apply 0 0 (by omega) _ _ _ _ d _)
  · exact (congrFun (entry_second m ρ c) _).trans (HostStage.projOf_apply 1 512 (by omega) _ _ _ _ d _)
  · exact (congrFun (entry_bias m ρ c) _).trans (HostStage.biasOf_apply _ d 0)

/-- The stored prototypes the distance kernel is entered with. -/
theorem mixed_entry (c : Dev nD) (d : Fin 512) (q : Fin 4096) :
    V2 m ρ c main_v11_0 (ix2 d q) = Cert.Spec.mixed (m ((c : Thread nD τ).loc main_arg1)) (m ((c : Thread nD τ).loc main_arg2)) (m ((c : Thread nD τ).loc main_arg3)) d q := by
  have hs : V2 m ρ c main_v11_0 = k0_pay3 (F := Ideal) (V1 m ρ c main_v7) (V1 m ρ c main_v9) (V1 m ρ c main_v10) :=
    (RunValue.entry_mixed m ρ c).trans (MixValue.stored_final (V1 m ρ) c)
  exact (congrFun hs (ix2 d q)).trans (mixed_body m ρ c d q)

/-- The squared norms the distance kernel is entered with. -/
theorem norm_entry (c : Dev nD) (q : Fin 4096) :
    V2 m ρ c main_v11_1 (ix2 (0 : Fin 1) q) = Cert.Spec.norm2 (m ((c : Thread nD τ).loc main_arg1)) (m ((c : Thread nD τ).loc main_arg2)) (m ((c : Thread nD τ).loc main_arg3)) q := by
  have hs : V2 m ρ c main_v11_1 = k0_pay2 (F := Ideal) (V1 m ρ c main_v7) (V1 m ρ c main_v9) (V1 m ρ c main_v10) :=
    (RunValue.entry_norms m ρ c).trans (MixValue.norms_final (V1 m ρ) c)
  refine (congrFun hs (ix2 (0 : Fin 1) q)).trans
    ((MixBody.norm_apply (V1 m ρ c main_v7) (V1 m ρ c main_v9) (V1 m ρ c main_v10) 0 q).trans ?_)
  unfold Cert.Spec.norm2
  exact Finset.sum_congr rfl fun d _ => by rw [mixed_body m ρ c d q]

/-! ## The result -/

/-- THE KERNEL'S RESULT ARRAY is the specification's, of the launch arrays. -/
theorem result_eq (c : Dev nD) :
    W3 m ρ c (Proc.devRef .tc main_v12) = Cert.Spec.result (m ((c : Thread nD τ).loc main_arg0)) (m ((c : Thread nD τ).loc main_arg1)) (m ((c : Thread nD τ).loc main_arg2)) (m ((c : Thread nD τ).loc main_arg3)) := by
  refine (RunValue.boundary_result m ρ c).trans ((DistValue.final (V2 m ρ) c).trans ?_)
  funext j
  show DistValue.distAt (V2 m ρ c main_arg0) (V2 m ρ c main_v11_0) (V2 m ρ c main_v11_1) ⟨(j 0).val, (j 0).isLt⟩ ⟨(j 1).val, (j 1).isLt⟩
    = Cert.Spec.dist (m ((c : Thread nD τ).loc main_arg0)) (Cert.Spec.mixed (m ((c : Thread nD τ).loc main_arg1)) (m ((c : Thread nD τ).loc main_arg2)) (m ((c : Thread nD τ).loc main_arg3))) (Cert.Spec.norm2 (m ((c : Thread nD τ).loc main_arg1)) (m ((c : Thread nD τ).loc main_arg2)) (m ((c : Thread nD τ).loc main_arg3))) ⟨(j 0).val, (j 0).isLt⟩ ⟨(j 1).val, (j 1).isLt⟩
  unfold DistValue.distAt Cert.Spec.dist
  rw [RunValue.entry_batch m ρ c]
  exact congrArg₂ (fun a b : EReal => a + b)
    (congrArg (fun z : EReal => (_ : EReal) - z) (congrArg (fun z : EReal => Ideal.ofBits .f32 0x40000000#32 * z)
      (Finset.sum_congr rfl fun k _ => congrArg (fun z : EReal => (_ : EReal) * z) (mixed_entry m ρ c k _))))
    (norm_entry m ρ c _)

/-- Every weakly fair execution of the idealized kernel terminates without a fault, with the result array at the
    specification's value of the launch arrays and the argument arrays unchanged. -/
theorem run : θ_run defs (onTc (τ := τ) (main (F := Ideal))) ⟨m, fun _ => 0, ρ⟩ (fun r => ∀ c : Dev nD,
      r.2.mem ((c.tc : Thread nD τ).loc main_v12) = Cert.Spec.result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (RunValue.run_boundary m ρ)

end Cert.KernelIdeal.KernelValue

end
-- ==== Proof.RefValue.lean ====
/-
  The reference program's result, at an entry, is the specification's squared distance.

  The reference forms every pair's concatenation (pv[0, j, ·], pv[1, l, ·]) as one row of 1024 (pair q = 64 j + l at
  row q), contracts it with the transposed weights and adds the bias: by the law of the specification (the sum over
  1024 columns is the sum over the two halves) row q of that product is the mixed prototype of pair q. The rest is
  the same expression as the kernel's: the batch rows' sums of squares, the pairs' squared norms, the batch against the
  transposed mixed prototypes, and (|x|² − 2 ⟨x, p⟩) + |p|². A host sum starts from the float zero, which is the
  extended real 0.
-/
import proofs.«166820_j80049600463053_2_alg».proof.Proof.Gen.ReferenceIdeal.Read
import proofs.«166820_j80049600463053_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Spec (Batch Protos Weights Bias)

/-! ## The two halves of a pair's row -/

/-- Group 0's prototypes spread over the second pair coordinate: at (j, l, k) it is pv[0, j, k]. -/
theorem first_group (pv : Protos) (j l : Fin 64) (k : Fin 512) :
    val_main_v3 (F := Ideal) pv (ix3 j l k) = pv (ix3 (0 : Fin 2) j k) := by
  rw [val_main_v3_apply, val_main_v2_apply, val_main_v1_apply, val_main_v0_apply]
  refine congrArg pv (funext fun a => Fin.ext ?_)
  have hj := j.isLt
  have hk := k.isLt
  match a with
  | ⟨0, _⟩ => rfl
  | ⟨1, _⟩ => show (j.val * 512 + k.val) / 512 % 64 = j.val; omega
  | ⟨2, _⟩ => show (j.val * 512 + k.val) % 512 = k.val; omega

/-- Group 1's prototypes spread over the first pair coordinate: at (j, l, k) it is pv[1, l, k]. -/
theorem second_group (pv : Protos) (j l : Fin 64) (k : Fin 512) :
    val_main_v7 (F := Ideal) pv (ix3 j l k) = pv (ix3 (1 : Fin 2) l k) := by
  rw [val_main_v7_apply, val_main_v6_apply, val_main_v5_apply, val_main_v4_apply]
  refine congrArg pv (funext fun a => Fin.ext ?_)
  have hl := l.isLt
  have hk := k.isLt
  match a with
  | ⟨0, _⟩ => rfl
  | ⟨1, _⟩ => show (l.val * 512 + k.val) / 512 % 64 = l.val; omega
  | ⟨2, _⟩ => show (l.val * 512 + k.val) % 512 = k.val; omega

/-- Row q of the pairs' matrix, first half: column k < 512 is pv[0, q / 64, k]. -/
theorem pair_left (pv : Protos) (q : Fin 4096) (d : Fin 512) (k : Fin 512) :
    val_main_v9 (F := Ideal) pv (lidx_main_v11 (ix2 q d) ⟨0 + k.val, by have := k.isLt; omega⟩)
      = pv (ix3 (0 : Fin 2) (⟨q.val / 64, by have := q.isLt; omega⟩ : Fin 64) k) := by
  have hq := q.isLt
  have hk := k.isLt
  rw [val_main_v9_apply]
  unfold val_main_v8
  refine (concatenate_pair_apply_left (2 : Fin S64x64x1024.rank) _ _ concatenates_S64x64x512_S64x64x512_S64x64x1024_d2 _ rfl
    (ix3 (⟨q.val / 64, by omega⟩ : Fin 64) (⟨q.val % 64, by omega⟩ : Fin 64) k) (fun b => ?_)).trans (first_group pv _ _ k)
  match b with
  | ⟨0, _⟩ => show q.val / 64 = (q.val * 1024 + (0 + k.val)) / 65536; omega
  | ⟨1, _⟩ => show q.val % 64 = (q.val * 1024 + (0 + k.val)) / 1024 % 64; omega
  | ⟨2, _⟩ => show k.val = (q.val * 1024 + (0 + k.val)) % 1024; omega

/-- Row q of the pairs' matrix, second half: column 512 + k is pv[1, q % 64, k]. -/
theorem pair_right (pv : Protos) (q : Fin 4096) (d : Fin 512) (k : Fin 512) :
    val_main_v9 (F := Ideal) pv (lidx_main_v11 (ix2 q d) ⟨512 + k.val, by have := k.isLt; omega⟩)
      = pv (ix3 (1 : Fin 2) (⟨q.val % 64, by omega⟩ : Fin 64) k) := by
  have hq := q.isLt
  have hk := k.isLt
  rw [val_main_v9_apply]
  unfold val_main_v8
  refine (concatenate_pair_apply_right (2 : Fin S64x64x1024.rank) _ _ concatenates_S64x64x512_S64x64x512_S64x64x1024_d2 _ rfl rfl
    (ix3 (⟨q.val / 64, by omega⟩ : Fin 64) (⟨q.val % 64, by omega⟩ : Fin 64) k) (fun b => ?_) ?_).trans (second_group pv _ _ k)
  · match b with
    | ⟨0, _⟩ => intro _; show q.val / 64 = (q.val * 1024 + (512 + k.val)) / 65536; omega
    | ⟨1, _⟩ => intro _; show q.val % 64 = (q.val * 1024 + (512 + k.val)) / 1024 % 64; omega
    | ⟨2, _⟩ => intro h; exact absurd rfl h
  · show k.val + 512 = (q.val * 1024 + (512 + k.val)) % 1024
    omega

/-! ## The mixed prototypes -/

/-- Row q, column d of the reference's mixed prototypes is entry d of the mixed prototype of pair q. -/
theorem mixed_ref (pv : Protos) (W : Weights) (b : Bias) (q : Fin 4096) (d : Fin 512) :
    val_main_v14 (F := Ideal) pv W b (ix2 q d) = Cert.Spec.mixed pv W b d q := by
  rw [val_main_v14_apply, val_main_v11_apply, val_main_v13_apply, val_main_v12_apply]
  refine Eq.trans ?_ (Cert.Spec.concat_contraction pv W b d q
    (fun k => val_main_v9 (F := Ideal) pv (lidx_main_v11 (ix2 q d) k)) (pair_left pv q d) (pair_right pv q d))
  refine congrArg₂ (· + ·) (Finset.sum_congr rfl fun k _ => congrArg (_ * ·) ?_) (congrArg b ?_)
  · rw [val_main_v10_apply]
    exact congrArg W (funext fun a => Fin.ext (by match a with | ⟨0, _⟩ => rfl | ⟨1, _⟩ => rfl))
  · exact funext fun a => Fin.ext (by match a with | ⟨0, _⟩ => rfl)

/-! ## The three terms of the distance -/

/-- The batch row's sum of squares, spread along the row. -/
theorem sq_ref (x : Batch) (i : Fin 16384) (q : Fin 4096) :
    val_main_v25 (F := Ideal) x (ix2 i q) = ∑ k : Fin 512, x (ix2 i k) * x (ix2 i k) := by
  rw [val_main_v25_apply, val_main_v17_apply, val_main_v16_apply, val_main_cst_apply]
  refine (congrArg (· + _) Ideal.ofBits_zero_f32).trans ((zero_add _).trans ?_)
  exact Finset.sum_congr rfl fun k _ => congrArg (fun j => x j * x j)
    (funext fun a => Fin.ext (by match a with | ⟨0, _⟩ => rfl | ⟨1, _⟩ => rfl))

/-- The pairs' squared norms, spread down the rows. -/
theorem norm_ref (pv : Protos) (W : Weights) (b : Bias) (i : Fin 16384) (q : Fin 4096) :
    val_main_v27 (F := Ideal) pv W b (ix2 i q) = Cert.Spec.norm2 pv W b q := by
  rw [val_main_v27_apply, val_main_v20_apply, val_main_v19_apply, val_main_cst_0_apply]
  refine (congrArg (· + _) Ideal.ofBits_zero_f32).trans ((zero_add _).trans ?_)
  unfold Cert.Spec.norm2
  refine Finset.sum_congr rfl fun d _ => ?_
  have e : idx_main_v19 (idx_main_v20 (idx_main_v27 (ix2 i q))) d = ix2 q d :=
    funext fun a => Fin.ext (by match a with | ⟨0, _⟩ => rfl | ⟨1, _⟩ => rfl)
  rw [e, val_main_v18_apply, mixed_ref]
  rfl

/-- The batch against the transposed mixed prototypes. -/
theorem dot_ref (x : Batch) (pv : Protos) (W : Weights) (b : Bias) (i : Fin 16384) (q : Fin 4096) :
    val_main_v22 (F := Ideal) x pv W b (ix2 i q) = ∑ k : Fin 512, x (ix2 i k) * Cert.Spec.mixed pv W b k q := by
  rw [val_main_v22_apply]
  refine Finset.sum_congr rfl fun k _ => ?_
  have el : lidx_main_v22 (ix2 i q) k = ix2 i k :=
    funext fun a => Fin.ext (by match a with | ⟨0, _⟩ => rfl | ⟨1, _⟩ => rfl)
  have er : idx_main_v21 (ridx_main_v22 (ix2 i q) k) = ix2 q k :=
    funext fun a => Fin.ext (by match a with | ⟨0, _⟩ => rfl | ⟨1, _⟩ => rfl)
  rw [el, val_main_v21_apply, er, mixed_ref]

/-! ## The result -/

/-- THE REFERENCE'S RESULT is the specification's. -/
theorem result_ref (x : Batch) (pv : Protos) (W : Weights) (b : Bias) :
    val_main_v28 (F := Ideal) x pv W b = Cert.Spec.result x pv W b := by
  funext j
  obtain ⟨i, q, rfl⟩ : ∃ (i : Fin 16384) (q : Fin 4096), j = ix2 i q := ⟨j 0, j 1, eq_ix2 j⟩
  exact congrArg₂ (· + ·) (congrArg₂ (· - ·) (sq_ref x i q)
    (congrArg (Ideal.ofBits .f32 0x40000000#32 * ·) (dot_ref x pv W b i q))) (norm_ref pv W b i q)

end Cert.ReferenceIdeal.RefValue

end
-- ==== Proof.lean ====
/-
  The pairwise squared distance of a batch to mixed prototype pairs: the kernel against its reference.

  The kernel computes the two halves of every mixed prototype separately — prototype j of group 0 through the first
  512 columns of the mixing weights, prototype l of group 1 through the last 512 — and adds them and the bias inside
  a first kernel region, which also takes the squared norms; a second region, on 16 bands of 1024 batch rows, forms
  (|x|² − 2 ⟨x, p⟩) + |p|². The reference concatenates each pair into one row of 1024 and contracts it with the whole
  weight rows. Over the extended reals the two are one function of the arguments (Proof/Spec.lean): a sum over 1024
  columns is the sum over its two halves, and sums and products commute; nothing needs the inputs to be finite, so the
  precondition is never opened.

  The three frames are the generated ones (the reference's is its generated run with the result dropped); no rewrite
  was applied when the kernel was idealized, so that conjunct is trivial; the last conjunct pairs the kernel's run
  (Proof/KernelValue.lean) with the reference's (Proof/RefValue.lean) at the specification's result.
-/
import proofs.«166820_j80049600463053_2_alg».proof.Defs
import proofs.«166820_j80049600463053_2_alg».proof.Proof.Gen.Kernel
import proofs.«166820_j80049600463053_2_alg».proof.Proof.Gen.Kernel.Skeleton
import proofs.«166820_j80049600463053_2_alg».proof.Proof.Gen.Kernel.Launch
import proofs.«166820_j80049600463053_2_alg».proof.Proof.Gen.Kernel.Points
import proofs.«166820_j80049600463053_2_alg».proof.Proof.Gen.Kernel.Frame
import proofs.«166820_j80049600463053_2_alg».proof.Proof.Gen.KernelIdeal
import proofs.«166820_j80049600463053_2_alg».proof.Proof.Gen.KernelIdeal.Skeleton
import proofs.«166820_j80049600463053_2_alg».proof.Proof.Gen.KernelIdeal.Launch
import proofs.«166820_j80049600463053_2_alg».proof.Proof.Gen.KernelIdeal.Points
import proofs.«166820_j80049600463053_2_alg».proof.Proof.Gen.KernelIdeal.Frame
import proofs.«166820_j80049600463053_2_alg».proof.Proof.Gen.ReferenceIdeal
import proofs.«166820_j80049600463053_2_alg».proof.Proof.Gen.ReferenceIdeal.Run
import proofs.«166820_j80049600463053_2_alg».proof.Proof.Gen.ReferenceIdeal.Read
import proofs.«166820_j80049600463053_2_alg».proof.Proof.Gen.Pre_finite_inputs
import proofs.«166820_j80049600463053_2_alg».proof.Proof.KernelValue
import proofs.«166820_j80049600463053_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the specification's result of those
    arguments: the kernel's run names it directly, the reference's through its composed term. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.ReferenceIdeal.RefValue.result_ref,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
